-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x512 .f32) (main_arg1 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x512 : Shape := ⟨2, ![65536, 512]⟩
abbrev S512x512 : Shape := ⟨2, ![512, 512]⟩
abbrev S_ : Shape := ⟨0, ![]⟩
abbrev S512 : Shape := ⟨1, ![512]⟩
abbrev S1x512 : Shape := ⟨2, ![1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S512x512, .bf16⟩
  | .hbm, ⟨7, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  shapeCasts_S512_S1x512 : S512.ShapeCasts S1x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  broadcasts_S2048x1_S2048x512 : S2048x1.Broadcasts S2048x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S65536x512, .f32⟩
  | .hbm, ⟨10, _⟩ => ⟨S1x512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S512x512_S512_d1 : S512x512.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  dot_S65536x512_S512x512_S65536x512_1_1_0_0_n_n_wf : DotDims.WF S65536x512 S512x512 S65536x512 [1] [1] [0] [0] [] []

variable [Facts₀]

def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.SqDist.lean ====
/-
  The squared Euclidean distance from each of 65536 points of a 512-dimensional space (the rows of `x`) to each of
  512 prototypes (the rows of `w`), in the expanded form

      d(n, p) = (|x_n|² + |w_p|²) − 2 · ⟨x_n, w_p⟩,

  read on the extended reals: the squared norms and the inner product are sums over the 512 coordinates, and the
  factor 2 is the single-precision word of 2.0, which is never evaluated because both programs write the same word.
  Nothing here is rearranged: the two programs associate the three terms in exactly this way, so the value needs no
  law of the extended reals beyond `0 + a = a`.
-/
import Idealize.ShloMosaic.PureOps.Ideal
import Idealize.ShloMosaic.Lib.ValueIdx

noncomputable section

open scoped BigOperators

namespace Cert.SqDist

open Idealize.ShloMosaic Idealize.ShloMosaic.ValueIdx

/-- The index set of the points' array (and of the result): a point and a coordinate (or a prototype). -/
abbrev PtIdx : Type := (⟨2, ![65536, 512]⟩ : Shape).Idx
/-- The index set of the prototypes' array: a prototype and a coordinate. -/
abbrev ProtoIdx : Type := (⟨2, ![512, 512]⟩ : Shape).Idx

/-- The factor 2, as the single-precision word both programs write. -/
abbrev two : EReal := Ideal.ofBits .f32 0x40000000#32

/-- The squared norm of row `r` of a matrix with 512 columns: the sum of the squares of its entries. -/
def normSq {R : Nat} (a : (⟨2, ![R, 512]⟩ : Shape).Idx → EReal) (r : Fin R) : EReal :=
  ∑ f : Fin 512, a (ix2 r f) * a (ix2 r f)

/-- The inner product of point `n` with prototype `p`. -/
def inner (x : PtIdx → EReal) (w : ProtoIdx → EReal) (n : Fin 65536) (p : Fin 512) : EReal :=
  ∑ k : Fin 512, x (ix2 n k) * w (ix2 p k)

/-- The squared distance from point `n` to prototype `p`, expanded. -/
def entry (x : PtIdx → EReal) (w : ProtoIdx → EReal) (n : Fin 65536) (p : Fin 512) : EReal :=
  (normSq x n + normSq w p) - two * inner x w n p

/-- The whole table of squared distances, indexed like the result array. -/
def table (x : PtIdx → EReal) (w : ProtoIdx → EReal) : PtIdx → EReal :=
  fun i => entry x w (i 0) (i 1)

theorem table_ix2 (x : PtIdx → EReal) (w : ProtoIdx → EReal) (n : Fin 65536) (p : Fin 512) :
    table x w (ix2 n p) = entry x w n p := rfl

end Cert.SqDist

end
-- ==== Proof.RefSqDist.lean ====
/-
  The reference computes the table of squared distances.  Read one operation at a time, its result at (n, p) is
  `(0 + Σ_f x[n,f]²  +  (0 + Σ_f w[p,f]²)) − 2 · Σ_k x[n,k]·w[p,k]`: two row sums started from the zero word, each
  broadcast along the other axis, and a contraction over the shared coordinate axis.  The zero word is the real 0,
  so the two initial values drop and what is left is the expanded squared distance itself.
-/
import proofs.«153775_j40819369181533_2_alg».proof.Proof.Gen.ReferenceIdeal.Read
import proofs.«153775_j40819369181533_2_alg».proof.Proof.SqDist
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx
open Cert.SqDist

/-- The row sum of the points' squares, broadcast to a column and then along the prototypes, reads row `n`. -/
theorem idx_pt_row (n : Fin 65536) (p : Fin 512) (k : Fin 512) :
    idx_main_v1 (idx_main_v2 (idx_main_v7 (ix2 n p))) k = ix2 n k :=
  funext fun a => Fin.ext (by match a with | ⟨0, _⟩ => rfl | ⟨1, _⟩ => rfl)

/-- The row sum of the prototypes' squares, broadcast to a row and then along the points, reads row `p`. -/
theorem idx_proto_row (n : Fin 65536) (p : Fin 512) (k : Fin 512) :
    idx_main_v4 (idx_main_v6 (idx_main_v8 (ix2 n p))) k = ix2 p k :=
  funext fun a => Fin.ext (by match a with | ⟨0, _⟩ => rfl | ⟨1, _⟩ => rfl)

/-- The contraction reads point `n` on the left … -/
theorem idx_dot_left (n : Fin 65536) (p : Fin 512) (k : Fin 512) : lidx_main_v5 (ix2 n p) k = ix2 n k :=
  funext fun a => Fin.ext (by match a with | ⟨0, _⟩ => rfl | ⟨1, _⟩ => rfl)

/-- … and prototype `p` on the right, both along the shared coordinate `k`. -/
theorem idx_dot_right (n : Fin 65536) (p : Fin 512) (k : Fin 512) : ridx_main_v5 (ix2 n p) k = ix2 p k :=
  funext fun a => Fin.ext (by match a with | ⟨0, _⟩ => rfl | ⟨1, _⟩ => rfl)

/-- The reference's result array is the table of squared distances of its two arguments. -/
theorem result_eq_table (x : (⟨S65536x512, .f32⟩ : BufTy).Contents (Elt Ideal)) (w : (⟨S512x512, .f32⟩ : BufTy).Contents (Elt Ideal)) :
    val_main_v12 (F := Ideal) x w = table x w := by
  funext i
  obtain ⟨n, p, rfl⟩ : ∃ (n : Fin 65536) (p : Fin 512), i = ix2 n p := ⟨i 0, i 1, eq_ix2 i⟩
  rw [val_main_v12_apply, val_main_v9_apply, val_main_v11_apply, val_main_v7_apply, val_main_v8_apply,
    val_main_v2_apply, val_main_v6_apply, val_main_v1_apply, val_main_v4_apply, val_main_v10_apply,
    val_main_v5_apply, val_main_cst_apply, val_main_cst_0_apply, val_main_cst_1_apply, table_ix2]
  simp only [val_main_v0_apply, val_main_v3_apply, idx_pt_row, idx_proto_row, idx_dot_left, idx_dot_right,
    Ideal.mulf_def, Ideal.addf_def, Ideal.subf_def, Ideal.ofBits_def, Ideal.ofBits_zero_f32, zero_add]
  rfl

end Cert.ReferenceIdeal.RefValue

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.BlockEntry.lean ====
/-
  What the kernel body stores, read at one entry of its block.

  The body works on a block of 2048 points `x` (rows of 512 coordinates), the whole prototype matrix `w` (512 rows
  of 512 coordinates) and a row `s` of 512 numbers — the prototypes' squared norms, computed before the kernel runs.
  On the extended reals the value it stores at (n, p) is

      (Σ_f x[n,f]²  +  s[0,p])  −  2 · Σ_k x[n,k] · w[p,k] :

  the row sum of squares is kept as a column and spread over the 512 prototypes, the row `s` is spread over the
  2048 points, and the matrix product contracts the coordinate axis of BOTH operands (point n against prototype p)
  into a zero accumulator, so it is the plain inner product.  The narrowing of `x` before the product is the
  identity on the extended reals.
-/
import proofs.«153775_j40819369181533_2_alg».proof.Proof.Gen.KernelIdeal.Skeleton
import proofs.«153775_j40819369181533_2_alg».proof.Proof.LibKeepdims
import proofs.«153775_j40819369181533_2_alg».proof.Proof.SqDist
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx
open Cert.SqDist (two)

/-- The product's dimension numbers: a block of points times the prototypes, the coordinate axis contracted. -/
abbrev ptsByProtos : DotDims S2048x512 S512x512 S2048x512 := dot_S2048x512_S512x512_S2048x512_1_1_0_0_n_n

/-- The left operand is read at the output's row (the point) … -/
theorem lhs_row (i : S2048x512.Idx) (q : ptsByProtos.contr.Idx) : (ptsByProtos.lhsIdx i q 0).val = (i 0).val := by
  unfold DotDims.lhsIdx
  rw [dif_neg (show ¬(0 : Fin S2048x512.rank) ∈ ptsByProtos.lhsBatch by decide),
    dif_pos (show (0 : Fin S2048x512.rank) ∈ ptsByProtos.lhsNonContracting by decide)]
  rfl
/-- … and at the contracted coordinate; -/
theorem lhs_coord (i : S2048x512.Idx) (q : ptsByProtos.contr.Idx) : (ptsByProtos.lhsIdx i q 1).val = (q ⟨0, by decide⟩).val :=
  ptsByProtos.lhsIdx_val_of_single rfl i q
/-- the right operand at the output's COLUMN (the prototype), as its row, … -/
theorem rhs_row (i : S2048x512.Idx) (q : ptsByProtos.contr.Idx) : (ptsByProtos.rhsIdx i q 0).val = (i 1).val := by
  unfold DotDims.rhsIdx
  rw [dif_neg (show ¬(0 : Fin S512x512.rank) ∈ ptsByProtos.rhsBatch by decide),
    dif_pos (show (0 : Fin S512x512.rank) ∈ ptsByProtos.rhsNonContracting by decide)]
  rfl
/-- … and at the contracted coordinate. -/
theorem rhs_coord (i : S2048x512.Idx) (q : ptsByProtos.contr.Idx) : (ptsByProtos.rhsIdx i q 1).val = (q ⟨0, by decide⟩).val :=
  ptsByProtos.rhsIdx_val_of_single rfl i q

/-- The product into a zero accumulator, read at (n, p): the inner product of row `n` of the left operand with row
    `p` of the right one. -/
theorem product_apply (l : FVec Ideal S2048x512 .bf16) (r : FVec Ideal S512x512 .bf16) (n : Fin 2048) (p : Fin 512) :
    matmul ptsByProtos none l r (constant S2048x512 .f32 0x00000000#32) (ix2 n p)
      = ∑ k : Fin 512, l (ix2 n k) * r (ix2 p k) := by
  refine (Ideal.matmul_constant_zero_apply ptsByProtos none l r (ix2 n p)).trans ?_
  rw [← Equiv.sum_comp (contrEquiv1 ptsByProtos 512 rfl rfl).symm]
  refine Finset.sum_congr rfl fun k _ => ?_
  have hk := contrEquiv1_symm_val ptsByProtos 512 rfl rfl k
  have el : ptsByProtos.lhsIdx (ix2 n p) ((contrEquiv1 ptsByProtos 512 rfl rfl).symm k) = ix2 n k :=
    funext fun a => Fin.ext (by
      match a with
      | ⟨0, _⟩ => exact lhs_row _ _
      | ⟨1, _⟩ => exact (lhs_coord _ _).trans hk)
  have er : ptsByProtos.rhsIdx (ix2 n p) ((contrEquiv1 ptsByProtos 512 rfl rfl).symm k) = ix2 p k :=
    funext fun a => Fin.ext (by
      match a with
      | ⟨0, _⟩ => exact rhs_row _ _
      | ⟨1, _⟩ => exact (rhs_coord _ _).trans hk)
  rw [el, er]

/-- The body's stored value at entry (n, p) of the block. -/
theorem stored_apply (x : FVec Ideal S2048x512 .f32) (w : FVec Ideal S512x512 .bf16) (s : FVec Ideal S1x512 .f32)
    (n : Fin 2048) (p : Fin 512) :
    k0_pay1 (F := Ideal) x w s (ix2 n p)
      = ((∑ f : Fin 512, x (ix2 n f) * x (ix2 n f)) + s (ix2 (0 : Fin 1) p))
          - two * ∑ k : Fin 512, x (ix2 n k) * w (ix2 p k) := by
  unfold k0_pay1
  refine (subf_apply _ _ _).trans (congrArg₂ (· - ·) ?_ ?_)
  · refine (addf_apply _ _ _).trans (congrArg₂ (· + ·) ?_ ?_)
    · exact Cert.LibKeepdims.rowSum_keepdims_broadcast_apply (mulf x x) 0x00000000#32 reduces_S2048x512_S2048 (.inl rfl) rfl
        shapeCasts_S2048_S2048x1 broadcasts_S2048x1_S2048x512 n p
    · refine (broadcastTo_1b_ab_apply _ broadcasts_S1x512_S2048x512 n p).trans ?_
      exact congrFun (shapeCast_self s shapeCasts_S1x512_S1x512) _
  · refine (mulf_apply _ _ _).trans (congrArg₂ (· * ·) rfl ?_)
    refine (product_apply _ _ n p).trans ?_
    rw [shapeCast_self w shapeCasts_S512x512_S512x512]
    rfl

end Cert.KernelIdeal.BlockValue

end
-- ==== Proof.ProtoSide.lean ====
/-
  What the kernel finds in the two arrays prepared from the prototypes before it runs.

  Before the kernel is launched the program squares the prototype matrix `w` entry by entry, sums each row from the
  zero word, lays the 512 sums out as one row, and narrows `w` itself for the matrix unit.  On the extended reals
  the narrowed copy IS `w` (a change of format is the identity), and the row of sums holds, at column `p`, the
  squared norm of prototype `p`: `0 + Σ_f w[p,f]²`, the zero word being the real 0.
-/
import proofs.«153775_j40819369181533_2_alg».proof.Proof.Gen.KernelIdeal.Frame
import proofs.«153775_j40819369181533_2_alg».proof.Proof.SqDist
import Idealize.ShloMosaic.Lib.StableHlo.Run
import Idealize.ShloMosaic.Lib.ValueLayout
import Idealize.ShloMosaic.PureOps.Ideal.Laws

noncomputable section

open scoped BigOperators

namespace Cert.KernelIdeal.ProtoSide

open Cert.KernelIdeal Cert.KernelIdeal.Gen Idealize.ShloMosaic Idealize.ShloMosaic.TcCoe Idealize.ShloMosaic.ValueIdx
open Idealize.ShloMosaic.StableHlo Idealize.SL.Sem
open Cert.SqDist (normSq)

variable (m : (ℓ : Loc nD τ sig) → Buf (Elt Ideal) ℓ)

/-- A sum over the rows of a 512 × 512 matrix, started from the zero word, reads at row `p` the sum of the row's
    entries. -/
theorem rowSum_apply (y : FVec Ideal S512x512 .f32) (p : Fin 512) :
    Host.reduceAdd (F := Ideal) y (constant (F := Ideal) S_ .f32 0x00000000#32) reducesTo_S512x512_S512_d1 h_S_ (ix1 p)
      = ∑ f : Fin 512, y (ix2 p f) := by
  simp only [Host.reduceAdd, Ideal.hostReduceAdd_def]
  rw [Ideal.hostReduceAdd_single reducesTo_S512x512_S512_d1 (by decide)]
  refine (congrArg₂ (· + ·) Ideal.ofBits_zero_f32 (Finset.sum_congr rfl fun k _ => congrArg y (funext fun a => Fin.ext (by
    match a with
    | ⟨0, _⟩ => rfl
    | ⟨1, _⟩ => rfl)))).trans (zero_add _)

/-- The narrowed copy of the prototypes the kernel multiplies by is the prototype matrix itself. -/
theorem protos_eq (c : Dev nD) :
    (V m c main_v3 : S512x512.Idx → EReal) = m ((c : Thread nD τ).loc main_arg1) := by
  have e : (V m c main_v3 : S512x512.Idx → EReal)
      = truncf (F := Ideal) .bf16 (m ((c : Thread nD τ).loc main_arg1)) bitsLt_bf16_f32 := by
    dsimp only [Gen.V, Gen.hostOps0]; after_results
  rw [e]; rfl

/-- The row of sums the kernel adds holds, at column `p`, the squared norm of prototype `p`. -/
theorem protoNormSq_apply (c : Dev nD) (p : Fin 512) :
    (V m c main_v2 : S1x512.Idx → EReal) (ix2 (0 : Fin 1) p) = normSq (m ((c : Thread nD τ).loc main_arg1)) p := by
  have e : (V m c main_v2 : S1x512.Idx → EReal)
      = shapeCast S1x512 (Host.reduceAdd (F := Ideal)
          (mulf (m ((c : Thread nD τ).loc main_arg1)) (m ((c : Thread nD τ).loc main_arg1)))
          (constant (F := Ideal) S_ .f32 0x00000000#32) reducesTo_S512x512_S512_d1 h_S_) shapeCasts_S512_S1x512 := by
    dsimp only [Gen.V, Gen.hostOps0]; after_results; rfl
  rw [e]
  refine (shapeCast_a_1a_apply _ shapeCasts_S512_S1x512 0 p).trans ?_
  exact rowSum_apply _ p

end Cert.KernelIdeal.ProtoSide

end
-- ==== Proof.TableBlocks.lean ====
/-
  From the kernel's blocks to the whole table.

  The grid has 32 points; point `t` works on points' rows 2048·t … 2048·t + 2047 and writes the same rows of the
  result, all 512 columns, while the prototypes and the row of their squared norms are the same whole arrays at every
  point.  So what point `t` writes back is rows 2048·t … of the table of squared distances: entry (n, p) of its block
  is the stored value of the body on row `n` of its block of points, and that row is row 2048·t + n of the points'
  array.  The 32 blocks tile the 65536 rows — row `r` lies in block `r / 2048` — so after the run the result array
  is the table.
-/
import proofs.«153775_j40819369181533_2_alg».proof.Proof.Gen.KernelIdeal.Value
import proofs.«153775_j40819369181533_2_alg».proof.Proof.BlockEntry
import proofs.«153775_j40819369181533_2_alg».proof.Proof.ProtoSide
import proofs.«153775_j40819369181533_2_alg».proof.Proof.SqDist
import Idealize.ShloMosaic.Lib.Pipeline.Value

noncomputable section

open scoped BigOperators

namespace Cert.KernelIdeal.TableValue

open Cert.KernelIdeal Cert.KernelIdeal.Gen Idealize.ShloMosaic Idealize.ShloMosaic.TcCoe Idealize.SL.Sem
open Idealize.ShloMosaic.ValueIdx
open Idealize.ShloMosaic.Pipeline (Dat)
open Cert.SqDist

variable (m : (ℓ : Loc nD τ sig) → Buf (Elt Ideal) ℓ) (ρ : Dev nD → PrngReg)

theorem zeros2 : (![0, 0] : Fin 2 → Nat) = fun _ => 0 := funext fun a => by fin_cases a <;> rfl

/-- One entry of one block.  If `x` is the block of points' rows `b·2048 …` of `X`, `w` is `W` and `s` holds the
    squared norms of `W`'s rows, then the body's stored value at `j` is the table's entry at the index `i` that has
    `j`'s row moved down by `b` blocks and `j`'s column. -/
theorem stored_eq_table (X : PtIdx → EReal) (W : ProtoIdx → EReal)
    (x : FVec Ideal S2048x512 .f32) (w : FVec Ideal S512x512 .bf16) (s : FVec Ideal S1x512 .f32) (b : Nat)
    (hx : ∀ (n : Fin 2048) (f : Fin 512) (i : PtIdx), (i 0).val = b * 2048 + n.val → (i 1).val = f.val → x (ix2 n f) = X i)
    (hw : ∀ (p f : Fin 512), w (ix2 p f) = W (ix2 p f))
    (hs : ∀ p : Fin 512, s (ix2 (0 : Fin 1) p) = normSq W p)
    (j : S2048x512.Idx) (i : PtIdx) (h0 : (i 0).val = b * 2048 + (j 0).val) (h1 : (i 1).val = (j 1).val) :
    k0_pay1 (F := Ideal) x w s j = table X W i := by
  obtain ⟨n, p, rfl⟩ : ∃ (n : Fin 2048) (p : Fin 512), j = ix2 n p := ⟨j 0, j 1, eq_ix2 j⟩
  rw [BlockValue.stored_apply]
  have ex : ∀ f : Fin 512, x (ix2 n f) = X (ix2 (i 0) f) := fun f => hx n f _ h0 rfl
  have ew : ∀ f : Fin 512, w (ix2 p f) = W (ix2 (i 1) f) := fun f =>
    (hw p f).trans (congrArg W (funext fun a => Fin.ext (by
      match a with
      | ⟨0, _⟩ => exact h1.symm
      | ⟨1, _⟩ => rfl)))
  have es : s (ix2 (0 : Fin 1) p) = normSq W (i 1) := (hs p).trans (by
    unfold normSq
    exact Finset.sum_congr rfl fun f _ => by rw [← ew f, hw p f])
  simp only [ex, ew, es]
  rfl

/-- The printed index maps, decided over the 32 grid points: the points' block moves with the result's block, along
    the rows only; the prototypes and their squared norms are always the one whole block. -/
theorem idx_facts : ∀ t : Fin cfg0.N,
      win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 32 row blocks of the result is some point's. -/
theorem idx_onto : ∀ q : Fin 32, ∃ t : Fin cfg0.N, win0_3.index t = ![q.val, 0] :=
  (by decide +kernel : ∀ q : Fin 32, ∃ t : Fin grid0.N, win0_3.index t = ![q.val, 0])

/-- What point `t` writes back is its block of the table of squared distances of the two argument arrays. -/
theorem flushed_eq (c : Dev nD) (t : Fin cfg0.N) :
    (dats m 0 c).flushed 3 t = ((cfg0.win 3).blk t).view.read (Elt Ideal)
      (table (m ((c : Thread nD τ).loc main_arg0)) (m ((c : Thread nD τ).loc main_arg1))) := by
  rw [Value.flushed3]
  unfold out0_3
  rw [View.canon_unit_zero zeros2]
  simp only [View.ld_unit_zero (S := S2048x512) zeros2, View.ld_unit_zero (S := S512x512) zeros2,
    View.ld_unit_zero (S := S1x512) zeros2]
  obtain ⟨e00, e01, e10, e11, e20, e21, e31⟩ := idx_facts t
  funext j
  show k0_pay1 (F := Ideal) (iblk m c 0 t) (iblk m c 1 t) (iblk m c 2 t) j
    = table (m ((c : Thread nD τ).loc main_arg0)) (m ((c : Thread nD τ).loc main_arg1)) (((cfg0.win 3).blk t).view.emb j)
  refine stored_eq_table _ _ (iblk m c 0 t) (iblk m c 1 t) (iblk m c 2 t) (win0_3.index t (0 : Fin 2)) ?_ ?_ ?_ j
    (((cfg0.win 3).blk t).view.emb j) ?_ ?_
  · intro n f i hi0 hi1
    show V m c main_arg0 (((cfg0.win 0).blk t).view.emb (ix2 n f)) = m ((c : Thread nD τ).loc main_arg0) i
    rw [V_main_arg0]
    refine congrArg _ (funext fun a => Fin.ext ?_)
    match a with
    | ⟨0, _⟩ => show win0_0.index t (0 : Fin 2) * 2048 + 1 * n.val = (i 0).val; omega
    | ⟨1, _⟩ => show win0_0.index t (1 : Fin 2) * 512 + 1 * f.val = (i 1).val; omega
  · intro p f
    show (V m c main_v3 : S512x512.Idx → EReal) (((cfg0.win 1).blk t).view.emb (ix2 p f)) = _
    rw [ProtoSide.protos_eq]
    refine congrArg _ (funext fun a => Fin.ext ?_)
    match a with
    | ⟨0, _⟩ => show win0_1.index t (0 : Fin 2) * 512 + 1 * p.val = p.val; omega
    | ⟨1, _⟩ => show win0_1.index t (1 : Fin 2) * 512 + 1 * f.val = f.val; omega
  · intro p
    show (V m c main_v2 : S1x512.Idx → EReal) (((cfg0.win 2).blk t).view.emb (ix2 (0 : Fin 1) p)) = _
    have hidx : ((cfg0.win 2).blk t).view.emb (ix2 (0 : Fin 1) p) = ix2 (0 : Fin 1) p :=
      funext fun a => Fin.ext (by
        match a with
        | ⟨0, _⟩ => show win0_2.index t (0 : Fin 2) * 1 + 1 * 0 = 0; omega
        | ⟨1, _⟩ => show win0_2.index t (1 : Fin 2) * 512 + 1 * p.val = p.val; omega)
    rw [hidx]
    exact ProtoSide.protoNormSq_apply m c p
  · show win0_3.index t (0 : Fin 2) * 2048 + 1 * (j 0).val = win0_3.index t (0 : Fin 2) * 2048 + (j 0).val
    omega
  · show win0_3.index t (1 : Fin 2) * 512 + 1 * (j 1).val = (j 1).val
    omega

/-- An index of the result array is in point `t`'s block iff each coordinate is in the block's range on its axis. -/
theorem mem_blk (t : Fin cfg0.N) (i : S65536x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v4).slice (win0_3.rect t)).set ↔ _
  rw [View.set_slice_whole, Rect.mem_set_unit]
  exact Iff.rfl

/-- The blocks tile the result: row `r`, any column, lies in the block of point `r / 2048`. -/
theorem cover (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- After the run the result array is the table of squared distances of the two argument arrays. -/
theorem final (c : Dev nD) :
    (dats m 0 c).arrAt 3 cfg0.N = table (m ((c : Thread nD τ).loc main_arg0)) (m ((c : Thread nD τ).loc main_arg1)) :=
  (dats m 0 c).arrAt_eq_of_cover 3 _ (fun t _ => flushed_eq m c t) cover

/-- The kernel's run: it terminates without a fault, the result array holds the table, the arguments are unchanged. -/
theorem run : θ_run defs (onTc (τ := τ) (main (F := Ideal))) ⟨m, fun _ => 0, ρ⟩ fun r => ∀ c : Dev nD,
      r.2.mem ((c : Thread nD τ).loc main_v4)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.TableValue

end
-- ==== Proof.lean ====
/-
  The kernel computes the table of squared Euclidean distances between 65536 points and 512 prototypes of a
  512-dimensional space, `d(n, p) = (|x_n|² + |w_p|²) − 2·⟨x_n, w_p⟩`, 2048 points at a time; the reference computes
  the same expansion on whole arrays.  On the extended reals the two results are one function of the two arguments:

  * the reference, read one operation at a time, is the table (`RefSqDist`): its two row sums start from the zero
    word, which is the real 0;
  * the kernel's body stores, at entry (n, p) of its block, the squared norm of its block's row n, plus the p-th of
    the prototypes' squared norms it is handed, minus twice the inner product of row n with prototype p
    (`BlockEntry`); the squared norms it is handed are those of the prototypes and the matrix it multiplies by is the
    prototype matrix (`ProtoSide`); the 32 blocks are consecutive runs of 2048 rows and tile the result
    (`TableBlocks`).

  Both programs associate the three terms in the same way and write the same word for 2, so no law of the extended
  reals is used beyond `0 + a = a`, and the finiteness of the inputs is never needed.  Each program runs without a
  fault and leaves its arguments as they were; the idealized kernel is the kernel's own text read on the extended
  reals, nothing rewritten.
-/
import proofs.«153775_j40819369181533_2_alg».proof.Defs
import proofs.«153775_j40819369181533_2_alg».proof.Proof.Gen.Kernel.Frame
import proofs.«153775_j40819369181533_2_alg».proof.Proof.Gen.KernelIdeal.Frame
import proofs.«153775_j40819369181533_2_alg».proof.Proof.Gen.KernelIdeal.Value
import proofs.«153775_j40819369181533_2_alg».proof.Proof.Gen.ReferenceIdeal
import proofs.«153775_j40819369181533_2_alg».proof.Proof.Gen.ReferenceIdeal.Run
import proofs.«153775_j40819369181533_2_alg».proof.Proof.Gen.ReferenceIdeal.Read
import proofs.«153775_j40819369181533_2_alg».proof.Proof.Gen.Pre_finite_inputs
import proofs.«153775_j40819369181533_2_alg».proof.Proof.RefSqDist
import proofs.«153775_j40819369181533_2_alg».proof.Proof.TableBlocks
import Idealize.ShloMosaic.Adequacy
import Idealize.ShloMosaic.Init

noncomputable section

namespace Cert.Proof

open Idealize.ShloMosaic Idealize.ShloMosaic.TcCoe Idealize.SL.Sem

/-- The kernel as printed runs without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the points and the prototypes, both programs end with the table of squared distances
    of those two arrays in their result. -/
theorem algebraic : Cert.algebraic_KernelIdeal_ReferenceIdeal := by
  intro m ρ m' ρ' _ hagree
  refine ⟨fun c => Cert.SqDist.table (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.TableValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.result_eq_table,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
